-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) (main_arg2 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  main_v13
-- ==== Kernel.lean ====
abbrev S8192x256 : Shape := ⟨2, ![8192, 256]⟩
abbrev S1024x256 : Shape := ⟨2, ![1024, 256]⟩
abbrev S1024 : Shape := ⟨1, ![1024]⟩
abbrev S1024x1 : Shape := ⟨2, ![1024, 1]⟩
abbrev S8192x1 : Shape := ⟨2, ![8192, 1]⟩
abbrev S512x256 : Shape := ⟨2, ![512, 256]⟩
abbrev S1024x512 : Shape := ⟨2, ![1024, 512]⟩
abbrev S1024x128 : Shape := ⟨2, ![1024, 128]⟩
abbrev S_ : Shape := ⟨0, ![]⟩

abbrev nBuf : Space → Nat
  | .hbm => 9
  | .vmem => 11
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .bf16⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S8192x256, .bf16⟩
  | .local _ .vmem, ⟨9, _⟩ => ⟨S1024x1, .f32⟩
  | .local _ .vmem, ⟨10, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

@[reducible] def k1_t1_loop : Scf.Loop 32 :=
  let c0_i32 : BitVec 32 := 0#32
  let c16_i32 : BitVec 32 := 16#32
  let v23 : BitVec 32 := Scalar.addi c0_i32 c16_i32
  let c1_i32 : BitVec 32 := 1#32
  ⟨c0_i32, v23, c1_i32⟩
def k1_mult1 (k1_t1 : Fin k1_t1_loop.trips) : BitVec 32 :=
  let c0_i32 : BitVec 32 := 0#32
  let c1_i32 : BitVec 32 := 1#32
  let arg5 : BitVec 32 := Scf.iv c0_i32 c1_i32 k1_t1
  let c512_i32 : BitVec 32 := 512#32
  let v32 : BitVec 32 := Scalar.muli arg5 c512_i32
  v32
def k1_off1 (k1_t1 : Fin k1_t1_loop.trips) : Fin 2 → Nat :=
  let c0_i32 : BitVec 32 := 0#32
  let c1_i32 : BitVec 32 := 1#32
  let arg5 : BitVec 32 := Scf.iv c0_i32 c1_i32 k1_t1
  let c512_i32 : BitVec 32 := 512#32
  let v32 : BitVec 32 := Scalar.muli arg5 c512_i32
  let v33 : BitVec 32 := v32
  let v34 : Index := Scalar.indexCast v33
  let c0_12 : Index := 0#32
  ![v34.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8192x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1024x256_S1024x256_0_0 : ∀ a, (![0, 0] : Fin 2 → Nat) a + S1024x256.size a ≤ S1024x256.size a
  h_S1024x256 : 0 < S1024x256.numel
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  h_S512x256 : 0 < S512x256.numel
  shapeCasts_S512x256_S512x256 : S512x256.ShapeCasts S512x256
  slices_S1024x512_o0_0_S1024x128 : S1024x512.Slices ![0, 0] S1024x128
  slices_S1024x512_o0_128_S1024x128 : S1024x512.Slices ![0, 128] S1024x128
  slices_S1024x512_o0_256_S1024x128 : S1024x512.Slices ![0, 256] S1024x128
  slices_S1024x512_o0_384_S1024x128 : S1024x512.Slices ![0, 384] S1024x128
  reduces_S1024x128_S1024 : S1024x128.Reduces [1] S1024
  inb_S1024x1_S1024x1_0_0 : ∀ a, (![0, 0] : Fin 2 → Nat) a + S1024x1.size a ≤ S1024x1.size a
  h_S1024x1 : 0 < S1024x1.numel
  reducesTo_S8192x1_S_d0_1 : S8192x1.ReducesTo [0, 1] S_
  h_S_ : 0 < S_.numel
  dot_S1024x256_S512x256_S1024x512_1_1_0_0_n_n_wf : DotDims.WF S1024x256 S512x256 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S512x256.size a ≤ S8192x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .f32 = 32 ∨ (Rect.block (s := S8192x256) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .f32 = 32 ∨ (Rect.block (s := S8192x256) S1024x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x256.size a ≤ S8192x256.size a
  hwx1_2 : ∀ i : grid1.Coords, EltTy.bits .bf16 = 32 ∨ (Rect.block (s := S8192x256) S8192x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S8192x1.size a
  hwx1_3 : ∀ i : grid1.Coords, EltTy.bits .f32 = 32 ∨ (Rect.block (s := S8192x1) S1024x1.size (cc1_transform_3 i) (hinb1_3 i)).WholeWords (EltTy.packing .f32)

variable [Facts₀]

def dot_S1024x256_S512x256_S1024x512_1_1_0_0_n_n : DotDims S1024x256 S512x256 S1024x512 where
  lhsContracting := [1]
  rhsContracting := [1]
  lhsNonContracting := [0]
  rhsNonContracting := [0]
  lhsBatch := []
  rhsBatch := []
  wf := dot_S1024x256_S512x256_S1024x512_1_1_0_0_n_n_wf

abbrev win0_0 : Pipeline.Window sig grid0 :=
  Pipeline.Window.ofSpec (Memref.whole main_arg2) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S8192x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩

abbrev nBuf : Space → Nat
  | .hbm => 54
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x256, .f32⟩
  | .hbm, ⟨22, _⟩ => ⟨S8192x256, .f32⟩
  | .hbm, ⟨23, _⟩ => ⟨S8192x256, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S_, .f32⟩
  | .hbm, ⟨35, _⟩ => ⟨S8192, .f32⟩
  | .hbm, ⟨36, _⟩ => ⟨S8192x8192, .f32⟩
  | .hbm, ⟨37, _⟩ => ⟨S_, .f32⟩
  | .hbm, ⟨38, _⟩ => ⟨S8192, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_cst : Ref sig .tc := ⟨.hbm, 14, rfl⟩
abbrev main_call1_v1 : Ref sig .tc := ⟨.hbm, 15, rfl⟩
abbrev main_call1_v2 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call2_v0 : Ref sig .tc := ⟨.hbm, 23, rfl⟩
abbrev main_call2_cst : Ref sig .tc := ⟨.hbm, 24, rfl⟩
abbrev main_call2_v1 : Ref sig .tc := ⟨.hbm, 25, rfl⟩
abbrev main_call2_v2 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_2 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_6 : Ref sig .tc := ⟨.hbm, 50, rfl⟩
abbrev main_v28 : Ref sig .tc := ⟨.hbm, 51, rfl⟩
abbrev main_cst_7 : Ref sig .tc := ⟨.hbm, 52, rfl⟩
abbrev main_v29 : Ref sig .tc := ⟨.hbm, 53, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.KRun.lean ====
/-
  The idealized kernel's run, with its result named.

  The program is two kernel regions followed by four host operations. Every weakly fair execution terminates without a
  fault; at the end every unscoped buffer holds the contents obtained by folding the three segments over the launch
  memory — region 0's output array at what its write-backs leave, then region 1's, then the host operations' results.
  The frame statement keeps only the three argument arrays from that final valuation; here the result buffer is kept
  as well, so the value of the program can be read off the fold.
-/
import proofs.«168930_j29953101922499_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result buffer at the final valuation's contents and the arguments as launched. -/
theorem run_value : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.KRun

end
-- ==== Proof.Spec.lean ====
/-
  The contrastive (NT-Xent) loss both programs compute, written once over plain rows.

  A row v of 256 extended reals is normalised to v / max(‖v‖, ε), ‖v‖ the square root of the sum of squares and ε the
  clamp both programs spell with the same word. For a batch of 8192 rows (i, j, k):
    pos(r)  = ⟨ẑi(r), ẑj(r)⟩,   sim(r, c) = ⟨ẑi(r), ẑk(c)⟩,
    row loss = log( exp(pos / T) + Σ_c exp(sim(r, c) / T) ) − pos / T,     loss = (Σ_r row loss) / 8192,  T = 1/2.
  The reference divides by the word for 0.5 (rowLoss); the kernel multiplies by the word for 2.0 and adds the 8192 terms
  of a row up in sixteen chunks of 512, each chunk as 128 lanes of four strided terms added to a zero (kRowLoss).
-/
import Idealize.ShloMosaic.PureOps.Ideal
import Idealize.ShloMosaic.Lib.ValueIdx

noncomputable section

open scoped BigOperators

namespace Cert.NTXent

open Idealize.ShloMosaic

/-- The clamp under the norm, 9.99999996e-13 as both programs spell it. -/
def eps : EReal := Ideal.ofBits .f32 0x2B8CBCCC#32
/-- The kernel's factor 1/T, the word for 2.0. -/
def two : EReal := Ideal.ofBits .f32 0x40000000#32
/-- The reference's divisor T, the word for 0.5. -/
def half : EReal := Ideal.ofBits .f32 0x3F000000#32
/-- The batch size as a float, the word for 8192.0. -/
def nB : EReal := Ideal.ofBits .f32 0x46000000#32

/-- An [n, 256] array read as n rows of 256 entries. -/
def rows {n : ℕ} (x : (⟨2, ![n, 256]⟩ : Shape).Idx → EReal) (r : Fin n) (d : Fin 256) : EReal := x (ValueIdx.ix2 r d)

/-- A row divided by its clamped Euclidean norm. -/
def unitVec (v : Fin 256 → EReal) (d : Fin 256) : EReal :=
  Ideal.div (v d) (max (Ideal.sqrt (∑ k : Fin 256, v k * v k)) eps)

/-- The inner product of two rows. -/
def dot (a b : Fin 256 → EReal) : EReal := ∑ d : Fin 256, a d * b d

/-- One row's loss as the reference computes it: logits divided by the temperature, one sum over all 8192 columns. -/
def rowLoss (vi vj : Fin 256 → EReal) (xk : Fin 8192 → Fin 256 → EReal) : EReal :=
  Ideal.log (Ideal.exp (Ideal.div (dot (unitVec vi) (unitVec vj)) half)
      + ∑ c : Fin 8192, Ideal.exp (Ideal.div (dot (unitVec vi) (unitVec (xk c))) half))
    - Ideal.div (dot (unitVec vi) (unitVec vj)) half

/-- The mean of the row losses. -/
def loss (xi xj xk : Fin 8192 → Fin 256 → EReal) : EReal :=
  Ideal.div (∑ r : Fin 8192, rowLoss (xi r) (xj r) xk) nB

/-- Column 512·k + 128·g + l: lane l of group g of chunk k. -/
def col (k : Fin 16) (g : Fin 4) (l : Fin 128) : Fin 8192 :=
  ⟨512 * k.val + 128 * g.val + l.val, by have := k.isLt; have := g.isLt; have := l.isLt; omega⟩

/-- One term of the kernel's denominator: the exponential of a similarity times 1/T. -/
def kTerm (zi : Fin 256 → EReal) (zk : Fin 8192 → Fin 256 → EReal) (c : Fin 8192) : EReal :=
  Ideal.exp (dot zi (zk c) * two)

/-- Chunk k's contribution: over the 128 lanes, the four groups' terms added one after the other to a zero. -/
def kChunk (zi : Fin 256 → EReal) (zk : Fin 8192 → Fin 256 → EReal) (k : Fin 16) : EReal :=
  ∑ l : Fin 128, ((((0 + kTerm zi zk (col k 0 l)) + kTerm zi zk (col k 1 l)) + kTerm zi zk (col k 2 l)) + kTerm zi zk (col k 3 l))

/-- The running denominator before chunk n, from zero. -/
def kAcc (zi : Fin 256 → EReal) (zk : Fin 8192 → Fin 256 → EReal) : ℕ → EReal
  | 0 => 0
  | n + 1 => kAcc zi zk n + (if h : n < 16 then kChunk zi zk ⟨n, h⟩ else 0)

/-- One row's loss as the kernel computes it, against already normalised rows zk. -/
def kRowLoss (vi vj : Fin 256 → EReal) (zk : Fin 8192 → Fin 256 → EReal) : EReal :=
  Ideal.log (Ideal.exp (dot (unitVec vi) (unitVec vj) * two) + kAcc (unitVec vi) zk 16)
    - dot (unitVec vi) (unitVec vj) * two

/-- The mean of the kernel's row losses. -/
def kLoss (xi xj : Fin 8192 → Fin 256 → EReal) (zk : Fin 8192 → Fin 256 → EReal) : EReal :=
  Ideal.div (∑ r : Fin 8192, kRowLoss (xi r) (xj r) zk) nB

end Cert.NTXent

end
-- ==== Proof.KTail.lean ====
/-
  The host operations after the regions: the mean of the row-loss column.

  The last four host operations add the 8192 entries of the [8192, 1] column to a zero and divide by the word for
  8192.0. The final valuation's result buffer is that function of the column the second region leaves, and at the
  ideal values it is the plain sum over the rows divided by that word.
-/
import proofs.«168930_j29953101922499_2_alg».proof.Proof.Gen.KernelIdeal.Frame
import proofs.«168930_j29953101922499_2_alg».proof.Proof.Spec
import Idealize.ShloMosaic.Lib.StableHlo.Run
import Idealize.ShloMosaic.Lib.ValueIdx
import Idealize.ShloMosaic.PureOps.Ideal.Laws

noncomputable section

open scoped BigOperators

namespace Cert.KernelIdeal.KTail

open Cert.KernelIdeal Cert.KernelIdeal.Gen Cert.NTXent
open Idealize.ShloMosaic Idealize.ShloMosaic.TcCoe Idealize.ShloMosaic.ValueIdx Idealize.SL.Sem Idealize.ShloMosaic.StableHlo

variable {F : FTy → Type} [FloatOps F]

/-- The host tail as one function of the column: its total added to a zero, divided by the batch size. -/
def tail (y : (⟨S8192x1, .f32⟩ : BufTy).Contents (Elt F)) : (⟨S_, .f32⟩ : BufTy).Contents (Elt F) :=
  Host.divf (Host.reduceAdd y (constant (F := F) S_ .f32 0x00000000#32) reducesTo_S8192x1_S_d0_1 h_S_) (constant (F := F) S_ .f32 0x46000000#32)

variable (m : (ℓ : Loc nD τ sig) → Buf (Elt F) ℓ) (ρ : Dev nD → PrngReg)

/-- The result buffer after the host operations is the tail of the column as the second region leaves it. -/
theorem W3_result (c : Dev nD) :
    W3 m ρ c (Proc.devRef .tc main_v3) = tail (W2 m ρ c (Proc.devRef .tc main_v1)) := by
  show StableHlo.after hostOps2 (W2 m ρ c) (Proc.devRef .tc main_v3) = _
  after_results
  rfl

/-- At the ideal values the tail is the sum of the column's 8192 entries divided by the word for 8192.0. -/
theorem tail_apply (y : (⟨S8192x1, .f32⟩ : BufTy).Contents (Elt Ideal)) (i : S_.Idx) :
    tail (F := Ideal) y i = Ideal.div (∑ r : Fin 8192, y (ix2 r (0 : Fin 1))) nB := by
  show Ideal.div (Ideal.hostReduceAdd reducesTo_S8192x1_S_d0_1 y (Ideal.ofBits .f32 0x00000000#32) i) (Ideal.ofBits .f32 0x46000000#32) = _
  rw [Ideal.hostReduceAdd_total reducesTo_S8192x1_S_d0_1 (fun b => b.elim0) y _ i, Ideal.ofBits_zero_f32, zero_add,
    sum_idx2 (n0 := 8192) (n1 := 1) y]
  refine congrArg (Ideal.div · nB) (Finset.sum_congr rfl fun r _ => ?_)
  exact Fin.sum_univ_one _

end Cert.KernelIdeal.KTail

end
-- ==== Proof.LibColumn.lean ====
/-
  General lemmas about rank-2 vectors, at any extents.

  * Keepdims column forms: an `[a]` vector cast to `[a, 1]` reads, at `(p, u)`, the vector at `p`; an `[a, 1]`
    column broadcast to `[a, b]` reads, at `(p, q)`, the column at `(p, 0)`.
  * Inserting coordinate `k` on the reduced second axis of an `[a, b]` vector at reduced index `p` gives `(p, k)`.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibColumn

open Idealize.ShloMosaic Idealize.ShloMosaic.ValueIdx

variable {α : Type}

/-- An `[a]` vector cast to a column `[a, 1]` reads, at `(p, u)`, the vector at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Reducing the second axis of `[a, b]` to `[a]`: the reduced index `p` with coordinate `k` put back is `(p, k)`. -/
theorem lift_row {a b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

end Cert.LibColumn

end
-- ==== Proof.LibDot.lean ====
/-
  A matrix product with one contracted axis, read at an index as a sum over the contracted extent.
  For dimension numbers that contract the left operand's axis 1 with the right operand's axis 0, with no batch
  axes — the plain product of an [M, K] matrix with a [K, N] matrix — the operand indices at result index (p, q) and
  contraction index k are (p, k) and (k, q); so the sum over the contraction shape is the sum over k < K of
  lhs (p, k) · rhs (k, q). Both a kernel's accumulating product into a zero accumulator and the host's product
  without an accumulator are that sum at the extended reals.
-/
import Idealize.ShloMosaic.Lib.ValueIdx
import Idealize.ShloMosaic.PureOps.Ideal.Laws
import Idealize.ShloMosaic.Lib.KernelVsHost

noncomputable section

namespace Idealize.ShloMosaic.LibDot

open Idealize.ShloMosaic Idealize.ShloMosaic.ValueIdx

variable {sl sr so : Shape} (d : DotDims sl sr so)

/-- A non-contracting, non-batch axis of the left operand reads the result index at its position. -/
theorem lhsIdx_val_of_non {a : Fin sl.rank} (hb : a ∉ d.lhsBatch) (hn : a ∈ d.lhsNonContracting)
    (j : so.Idx) (k : d.contr.Idx) (p : Nat) (hp : p < so.rank) (hpe : d.lhsBatch.length + d.lhsNonContracting.idxOf a = p) :
    (d.lhsIdx j k a).val = (j ⟨p, hp⟩).val := by
  subst hpe
  unfold DotDims.lhsIdx
  rw [dif_neg hb, dif_pos hn]
  rfl

/-- A non-contracting, non-batch axis of the right operand reads the result index at its position. -/
theorem rhsIdx_val_of_non {a : Fin sr.rank} (hb : a ∉ d.rhsBatch) (hn : a ∈ d.rhsNonContracting)
    (j : so.Idx) (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold DotDims.rhsIdx
  rw [dif_neg hb, dif_pos hn]
  rfl

/-- The plain product's sum over the contraction shape is the sum over the contracted extent. -/
theorem sum_plain {M K N : ℕ} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  have hr : d.contr.rank = 1 := by rw [d.rank_contr, hlc]; rfl
  have hs : d.contr.size ⟨0, by omega⟩ = K := by
    have h := d.size_contr 0 (by rw [hlc]; exact Nat.one_pos)
    simp only [hlc, List.getElem_cons_zero] at h
    exact h
  refine ((Equiv.sum_comp (contrEquiv1 d K hr hs).symm _).symm).trans ?_
  refine Finset.sum_congr rfl fun k _ => ?_
  have hl : d.lhsIdx (ix2 p q) ((contrEquiv1 d K hr hs).symm k) = ix2 p k := by
    funext a; apply Fin.ext
    match a with
    | ⟨0, _⟩ =>
      exact lhsIdx_val_of_non d (a := 0) (by rw [hlb]; exact List.not_mem_nil) (by rw [hln]; exact List.mem_singleton.mpr rfl) _ _ 0 (Nat.zero_lt_two)
        (by rw [hlb, hln]; rfl)
    | ⟨1, _⟩ =>
      exact (d.lhsIdx_val_of_single (cl := 1) hlc _ _).trans (contrEquiv1_symm_val d K hr hs k)
  have hrr : d.rhsIdx (ix2 p q) ((contrEquiv1 d K hr hs).symm k) = ix2 k q := by
    funext a; apply Fin.ext
    match a with
    | ⟨0, _⟩ =>
      exact (d.rhsIdx_val_of_single (cr := 0) hrc _ _).trans (contrEquiv1_symm_val d K hr hs k)
    | ⟨1, _⟩ =>
      exact rhsIdx_val_of_non d (a := 1) (by rw [hrb]; exact List.not_mem_nil) (by rw [hrn]; exact List.mem_singleton.mpr rfl) _ _ 1 (Nat.one_lt_two)
        (by rw [hlb, hln, hrn]; rfl)
  rw [hl, hrr]

/-- A kernel's product accumulated into the zero splat, read at (p, q). -/
theorem matmul_zero_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) :=
  (Ideal.matmul_constant_zero_apply d prec lhs rhs (ix2 p q)).trans (sum_plain d hlc hrc hlb hrb hln hrn lhs rhs p q)

/-- The host's product, read at (p, q). -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  rw [← matmul_zero_eq_dotGeneral]
  exact matmul_zero_plain d hlc hrc hlb hrb hln hrn prec lhs rhs p q

end Idealize.ShloMosaic.LibDot

end
-- ==== Proof.LibDotT.lean ====
/-
  General lemmas, at any extents.

  * A matrix product that contracts the SECOND axis of both operands, with no batch axes — an [M, K] matrix times the
    transpose of an [N, K] matrix — read at (p, q) is the sum over k < K of lhs (p, k) · rhs (q, k); for a kernel's
    accumulating product into the zero splat.
  * Reducing the FIRST axis of an [a, b] vector to [b]: the reduced index q with coordinate k put back is (k, q).
-/
import Idealize.ShloMosaic.Lib.ValueIdx
import Idealize.ShloMosaic.PureOps.Ideal.Laws
import proofs.«168930_j29953101922499_2_alg».proof.Proof.LibDot

noncomputable section

namespace Idealize.ShloMosaic.LibDotT

open Idealize.ShloMosaic Idealize.ShloMosaic.ValueIdx

/-- The sum over the contraction shape is the sum over the contracted extent. -/
theorem sum_nt {M K N : ℕ} (d : DotDims ⟨2, ![M, K]⟩ ⟨2, ![N, K]⟩ ⟨2, ![M, N]⟩)
    (hlc : d.lhsContracting = [1]) (hrc : d.rhsContracting = [1])
    (hlb : d.lhsBatch = []) (hrb : d.rhsBatch = []) (hln : d.lhsNonContracting = [0]) (hrn : d.rhsNonContracting = [0])
    (lhs : (⟨2, ![M, K]⟩ : Shape).Idx → EReal) (rhs : (⟨2, ![N, K]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 q k) := by
  have hr : d.contr.rank = 1 := by rw [d.rank_contr, hlc]; rfl
  have hs : d.contr.size ⟨0, by omega⟩ = K := by
    have h := d.size_contr 0 (by rw [hlc]; exact Nat.one_pos)
    simp only [hlc, List.getElem_cons_zero] at h
    exact h
  refine ((Equiv.sum_comp (contrEquiv1 d K hr hs).symm _).symm).trans ?_
  refine Finset.sum_congr rfl fun k _ => ?_
  have hl : d.lhsIdx (ix2 p q) ((contrEquiv1 d K hr hs).symm k) = ix2 p k := by
    funext a; apply Fin.ext
    match a with
    | ⟨0, _⟩ =>
      exact LibDot.lhsIdx_val_of_non d (a := 0) (by rw [hlb]; exact List.not_mem_nil) (by rw [hln]; exact List.mem_singleton.mpr rfl) _ _ 0 (Nat.zero_lt_two)
        (by rw [hlb, hln]; rfl)
    | ⟨1, _⟩ =>
      exact (d.lhsIdx_val_of_single (cl := 1) hlc _ _).trans (contrEquiv1_symm_val d K hr hs k)
  have hrr : d.rhsIdx (ix2 p q) ((contrEquiv1 d K hr hs).symm k) = ix2 q k := by
    funext a; apply Fin.ext
    match a with
    | ⟨0, _⟩ =>
      exact LibDot.rhsIdx_val_of_non d (a := 0) (by rw [hrb]; exact List.not_mem_nil) (by rw [hrn]; exact List.mem_singleton.mpr rfl) _ _ 1 (Nat.one_lt_two)
        (by rw [hlb, hln, hrn]; rfl)
    | ⟨1, _⟩ =>
      exact (d.rhsIdx_val_of_single (cr := 1) hrc _ _).trans (contrEquiv1_symm_val d K hr hs k)
  rw [hl, hrr]

/-- A kernel's product of a matrix with a transposed matrix, accumulated into the zero splat, read at (p, q). -/
theorem matmul_zero_nt {M K N : ℕ} {φ₁ φ₂ : FTy} (d : DotDims ⟨2, ![M, K]⟩ ⟨2, ![N, K]⟩ ⟨2, ![M, N]⟩)
    (hlc : d.lhsContracting = [1]) (hrc : d.rhsContracting = [1])
    (hlb : d.lhsBatch = []) (hrb : d.rhsBatch = []) (hln : d.lhsNonContracting = [0]) (hrn : d.rhsNonContracting = [0])
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) :=
  (Ideal.matmul_constant_zero_apply d prec lhs rhs (ix2 p q)).trans (sum_nt d hlc hrc hlb hrb hln hrn lhs rhs p q)

/-- Reducing the first axis of `[a, b]` to `[b]`: the reduced index `q` with coordinate `k` put back is `(k, q)`. -/
theorem lift_col {a b : ℕ} (h : (⟨2, ![a, b]⟩ : Shape).Reduces [0] ⟨1, ![b]⟩) (q : Fin b) (k : Fin a) :
    h.lift (ix1 q) k = ix2 k q :=
  funext fun ax => Fin.ext (by
    match ax with
    | ⟨0, _⟩ => rfl
    | ⟨1, _⟩ => rfl)

end Idealize.ShloMosaic.LibDotT

end
-- ==== Proof.LibSumAxis.lean ====
/-
  General lemmas about rank-2 float vectors at the extended reals, at any extents.

  * A float sum (a lane reduction with the zero accumulator) over the first axis of an [a, b] vector, read at q, is the
    sum over k of the vector at (k, q); over the second axis, read at p, the sum over k of the vector at (p, k).
  * A column [a, 1] cast to a vector [a] reads, at p, the column's entry of row p.
  * The exponential and the logistic function of a vector, read at an index.
-/
import Idealize.ShloMosaic.Lib.Pipeline.Value
import Idealize.ShloMosaic.Lib.ValueIdx
import Idealize.ShloMosaic.PureOps.Ideal.Laws
import proofs.«168930_j29953101922499_2_alg».proof.Proof.LibDotT
import proofs.«168930_j29953101922499_2_alg».proof.Proof.LibColumn

noncomputable section

open scoped BigOperators

namespace Cert.LibSumAxis

open Idealize.ShloMosaic Idealize.ShloMosaic.ValueIdx

/-- The exponential of a vector, read at an index. -/
theorem exp_apply {s : Shape} {φ : FTy} (a : FVec Ideal s φ) (i : s.Idx) : exp a i = Ideal.exp (a i) := rfl

/-- The logistic function of a vector, read at an index. -/
theorem logistic_apply {s : Shape} {φ : FTy} (a : FVec Ideal s φ) (i : s.Idx) : logistic a i = Ideal.logistic (a i) := rfl

/-- A float sum over the first axis of an [a, b] vector, read at q: the sum over k of the vector at (k, q). -/
theorem sum_first_axis {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  exact Finset.sum_congr rfl fun k _ => congrArg src (Idealize.ShloMosaic.LibDotT.lift_col h q k)

/-- A float sum over the second axis of an [a, b] vector, read at p: the sum over k of the vector at (p, k). -/
theorem sum_second_axis {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (Cert.LibColumn.lift_row h p k)

/-- A column [a, 1] cast to a vector [a] reads, at p, the column's entry of row p. -/
theorem shapeCast_a1_a_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

end Cert.LibSumAxis

end
-- ==== Proof.KPay.lean ====
/-
  The kernel bodies' arithmetic, read at an index.

  Both kernel bodies work on a block of 1024 rows. Every row is normalised on its own: the lane sum of squares, its
  square root clamped below by ε, and the row divided by that (a change of float format is the identity on the
  extended reals, so the stored low-precision block is the same numbers). The main body then forms, per row, the inner
  product with the partner row, and per chunk of 512 resident rows the exponentials of the scaled inner products, which
  it adds up lane-wise in four strided groups before one lane sum; the carried column accumulates the chunks. The last
  payload is log(exp(2·pos) + acc) − 2·pos.
-/
import proofs.«168930_j29953101922499_2_alg».proof.Proof.Gen.KernelIdeal.Skeleton
import proofs.«168930_j29953101922499_2_alg».proof.Proof.Spec
import proofs.«168930_j29953101922499_2_alg».proof.Proof.LibColumn
import proofs.«168930_j29953101922499_2_alg».proof.Proof.LibDotT
import proofs.«168930_j29953101922499_2_alg».proof.Proof.LibSumAxis
import Idealize.ShloMosaic.Lib.ValueIdx
import Idealize.ShloMosaic.PureOps.Ideal.Laws

noncomputable section

open scoped BigOperators

namespace Cert.KernelIdeal.KPay

open Cert.KernelIdeal Cert.KernelIdeal.Gen Cert.NTXent
open Idealize.ShloMosaic Idealize.ShloMosaic.ValueIdx

/-- The clamped norm column of a block, at row p: max(√(Σ_k v(p,k)²), ε). -/
theorem norm_col (v : Vec Ideal S1024x256 .f32) (p : Fin 1024) :
    maximumf (sqrt (shapeCast S1024x1 (multiReduction .add [1] S1024 (mulf v v) 0x00000000#32 reduces_S1024x256_S1024 (.inl rfl) rfl) shapeCasts_S1024_S1024x1))
        (broadcast S1024x1 (Scalar.ofBits (F := Ideal) .f32 0x2B8CBCCC#32)) (ix2 p (0 : Fin 1))
      = max (Ideal.sqrt (∑ k : Fin 256, rows v p k * rows v p k)) eps := by
  show max (Ideal.sqrt (shapeCast S1024x1 (multiReduction (F := Ideal) .add [1] S1024 (mulf v v) 0x00000000#32 reduces_S1024x256_S1024 (.inl rfl) rfl) shapeCasts_S1024_S1024x1 (ix2 p (0 : Fin 1)))) _ = _
  refine congrArg₂ max (congrArg Ideal.sqrt ?_) rfl
  refine (Cert.LibColumn.shapeCast_a_a1_apply _ shapeCasts_S1024_S1024x1 p 0).trans ?_
  exact Cert.LibSumAxis.sum_second_axis (mulf v v) reduces_S1024x256_S1024 (.inl rfl) rfl p

/-- A block divided by its broadcast norm column, at (p, q): the row's normalised entry. -/
theorem unit_entry (v : Vec Ideal S1024x256 .f32) (p : Fin 1024) (q : Fin 256) :
    divf v (broadcastTo S1024x256 (maximumf (sqrt (shapeCast S1024x1 (multiReduction .add [1] S1024 (mulf v v) 0x00000000#32 reduces_S1024x256_S1024 (.inl rfl) rfl) shapeCasts_S1024_S1024x1))
        (broadcast S1024x1 (Scalar.ofBits (F := Ideal) .f32 0x2B8CBCCC#32))) broadcasts_S1024x1_S1024x256) (ix2 p q)
      = unitVec (rows v p) q := by
  show Ideal.div (v (ix2 p q)) (broadcastTo S1024x256 _ broadcasts_S1024x1_S1024x256 (ix2 p q)) = _
  refine congrArg (Ideal.div (v (ix2 p q))) ?_
  refine (Cert.LibColumn.broadcastTo_a1_ab_apply _ broadcasts_S1024x1_S1024x256 p q).trans ?_
  exact norm_col v p

/-- Region 0's stored block at (p, q). -/
theorem pay0_apply (v0 : Vec Ideal S1024x256 .f32) (p : Fin 1024) (q : Fin 256) :
    k0_pay1 v0 (ix2 p q) = unitVec (rows v0 p) q := by
  unfold k0_pay1
  exact unit_entry v0 p q

/-- The main body's normalised left block at (p, q). -/
theorem pay1_apply (v0 : Vec Ideal S1024x256 .f32) (p : Fin 1024) (q : Fin 256) :
    k1_pay1 v0 (ix2 p q) = unitVec (rows v0 p) q := by
  unfold k1_pay1
  exact unit_entry v0 p q

end Cert.KernelIdeal.KPay

end
-- ==== Proof.KFinal0.lean ====
/-
  What the first kernel region leaves in its output array, as one function of the whole input array.

  The region normalises the third input. Its grid has 8 points; point t works on one block of 1024 rows by 256 entries.
  The input window and the output window move together: block t of either is rows 1024·t … 1024·t + 1023 of its array,
  all 256 columns (block index (t, 0), so an entry (p, q) of the block is entry (t·1024 + p, 0·256 + q) of the array).
  The body divides every row of its block by that row's clamped Euclidean norm, and a row's norm only looks at the row
  itself. So what point t writes back is block t of ONE array-wide function: every row of the input array divided by
  its own clamped norm. Every point writes its block back, and row r of the array lies in the block of point r / 1024,
  so the 8 blocks cover the array and the output array ends holding that function everywhere.
-/
import proofs.«168930_j29953101922499_2_alg».proof.Proof.KPay
import proofs.«168930_j29953101922499_2_alg».proof.Proof.Gen.KernelIdeal.Frame
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.KFinal0

open Cert.KernelIdeal Cert.KernelIdeal.Gen Cert.NTXent

/-- Every row of the array divided by its clamped norm. -/
def G0 (xk : Vec Ideal S8192x256 .f32) : Vec Ideal S8192x256 .bf16 :=
  fun j => unitVec (rows xk ⟨(j 0).val, (j 0).isLt⟩) ⟨(j 1).val, (j 1).isLt⟩

/-- At row r, column d it is entry d of row r's unit vector. -/
theorem G0_apply (xk : Vec Ideal S8192x256 .f32) (r : Fin 8192) (d : Fin 256) : G0 xk (ix2 r d) = unitVec (rows xk r) d := rfl

variable (V : (c : Dev nD) → (b : Ref sig .tc) → Buf (Elt Ideal) ((c : Thread nD τ).loc b))

/-- The body's one store and one load are at offset (0, 0) of the block. -/
theorem zero_offsets : (![0, 0] : Fin 2 → Nat) = fun _ => 0 := funext fun a => by fin_cases a <;> rfl

/-- The block index maps, decided over the grid: at point t both windows are at block (t, 0). -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Entry (p, k) of the input block at point t is entry (1024·t + p, k) of the input array. -/
theorem in_block (c : Dev nD) (t : Fin cfg0.N) (p : Fin 1024) (k : Fin 256) (h : 1024 * t.val + p.val < 8192) :
    (iblk0 V c 0 t : Vec Ideal S1024x256 .f32) (ix2 p k)
      = (V c main_arg2 : S8192x256.Idx → EReal) (ix2 ⟨1024 * t.val + p.val, h⟩ k) := by
  obtain ⟨e0, e1, -, -⟩ := block_index t
  unfold iblk0
  rw [View.read_apply]
  show V c main_arg2 (((cfg0.win 0).blk t).view.emb (ix2 p k)) = _
  refine congrArg (V c main_arg2) (funext fun a => Fin.ext ?_)
  match a with
  | ⟨0, _⟩ => show win0_0.index t (0 : Fin 2) * 1024 + 1 * p.val = 1024 * t.val + p.val; omega
  | ⟨1, _⟩ => show win0_0.index t (1 : Fin 2) * 256 + 1 * k.val = k.val; omega

/-- WHAT POINT t WRITES BACK is block t of the array-wide normalisation of the input array as the region finds it. -/
theorem flushed_eq (c : Dev nD) (t : Fin cfg0.N) :
    (dat0 (F := Ideal) V c).flushed 1 t = ((cfg0.win 1).blk t).view.read (Elt Ideal) (G0 (V c main_arg2)) := by
  show (cfg0.win 1).cut (grid0.coords t) ((dat0 V c).after 1 t) = _
  rw [after0_1]
  unfold out0_1
  rw [View.canon_unit_zero zero_offsets]
  simp only [View.ld_unit_zero (S := S1024x256) zero_offsets]
  funext y
  obtain ⟨p, q, rfl⟩ : ∃ (p : Fin 1024) (q : Fin 256), y = ix2 p q := ⟨y 0, y 1, eq_ix2 y⟩
  show k0_pay1 (iblk0 V c 0 t) (ix2 p q) = G0 (V c main_arg2) (((cfg0.win 1).blk t).view.emb (ix2 p q))
  refine (KPay.pay0_apply (iblk0 V c 0 t) p q).trans ?_
  have hN : cfg0.N = 8 := N_0
  have ht : t.val < 8 := hN ▸ t.isLt
  have hp : p.val < 1024 := p.isLt
  have h : 1024 * t.val + p.val < 8192 := by omega
  obtain ⟨-, -, e2, e3⟩ := block_index t
  have hemb : ((cfg0.win 1).blk t).view.emb (ix2 p q) = (ix2 ⟨1024 * t.val + p.val, h⟩ q : S8192x256.Idx) :=
    funext fun a => Fin.ext (by
      match a with
      | ⟨0, _⟩ => show win0_1.index t (0 : Fin 2) * 1024 + 1 * p.val = 1024 * t.val + p.val; omega
      | ⟨1, _⟩ => show win0_1.index t (1 : Fin 2) * 256 + 1 * q.val = q.val; omega)
  rw [hemb, G0_apply]
  exact congrArg (fun v => unitVec v q) (funext fun k => in_block V c t p k h)

/-- An index of the array is in point t's block iff each coordinate is in the block's range on its axis. -/
theorem mem_block (t : Fin cfg0.N) (i : S8192x256.Idx) :
    i ∈ ((cfg0.win 1).blk t).view.set ↔ ∀ a : Fin 2, win0_1.index t a * S1024x256.size a ≤ (i a).val
      ∧ (i a).val < win0_1.index t a * S1024x256.size a + S1024x256.size a := by
  show i ∈ ((View.whole main_v0).slice (win0_1.rect t)).set ↔ _
  rw [View.set_slice_whole, Rect.mem_set_unit]
  exact Iff.rfl

/-- The blocks cover the array: row r is in the block of point r / 1024, which is written back. -/
theorem cover (i : S8192x256.Idx) :
    ∃ t : Fin cfg0.N, (cfg0.win 1).flush t = true ∧ i ∈ ((cfg0.win 1).blk t).view.set := by
  have hN : cfg0.N = 8 := N_0
  have hi0 : (i 0).val < 8192 := (i 0).isLt
  have hi1 : (i 1).val < 256 := (i 1).isLt
  have htl : (i 0).val / 1024 < cfg0.N := by rw [hN]; omega
  obtain ⟨-, -, e2, e3⟩ := block_index ⟨(i 0).val / 1024, htl⟩
  refine ⟨⟨(i 0).val / 1024, htl⟩, flush0_1 _, ?_⟩
  rw [mem_block]
  intro a
  match a with
  | ⟨0, _⟩ =>
    show win0_1.index ⟨(i 0).val / 1024, htl⟩ (0 : Fin 2) * 1024 ≤ (i 0).val
      ∧ (i 0).val < win0_1.index ⟨(i 0).val / 1024, htl⟩ (0 : Fin 2) * 1024 + 1024
    rw [e2]
    show (i 0).val / 1024 * 1024 ≤ (i 0).val ∧ (i 0).val < (i 0).val / 1024 * 1024 + 1024
    omega
  | ⟨1, _⟩ =>
    show win0_1.index ⟨(i 0).val / 1024, htl⟩ (1 : Fin 2) * 256 ≤ (i 1).val
      ∧ (i 1).val < win0_1.index ⟨(i 0).val / 1024, htl⟩ (1 : Fin 2) * 256 + 256
    rw [e3]
    omega

/-- THE ARRAY after the region: every row of the input array, as the region finds it, divided by its clamped norm. -/
theorem final0 (c : Dev nD) : (dat0 (F := Ideal) V c).arrAt 1 cfg0.N = G0 (V c main_arg2) :=
  (dat0 V c).arrAt_eq_of_cover 1 (G0 (V c main_arg2)) (fun t _ => flushed_eq V c t) (cover)

end Cert.KernelIdeal.KFinal0

end
-- ==== Proof.KBody.lean ====
/-
  What the main kernel's body leaves in its output block.

  The body loads its two 1024-row input blocks, runs a counted loop of sixteen trips over the resident normalised array
  — trip k loads rows 512·k … 512·k + 511 of it and adds that chunk's contribution to the carried column —, and stores
  one column: the last payload of the two input blocks and the loop's result. The run's one covering store is read back
  here, the loop's carried value before trip n is identified with a recursion over the trips, and one trip's step with
  the trip payload of the chunk it loads.
-/
import proofs.«168930_j29953101922499_2_alg».proof.Proof.Gen.KernelIdeal.Frame
import Idealize.ShloMosaic.Lib.Pipeline.Value
import Idealize.ShloMosaic.Lib.Tactic

noncomputable section

namespace Cert.KernelIdeal.KBody

open Cert.KernelIdeal Cert.KernelIdeal.Gen
open Idealize.ShloMosaic Idealize.ShloMosaic.TcCoe Idealize.SL.Sem

variable {F : FTy → Type} [FloatOps F]

theorem hz : (![0, 0] : Fin 2 → Nat) = fun _ => 0 := funext fun a => by fin_cases a <;> rfl

/-- Chunk k of the resident array: its rows 512·k … 512·k + 511. -/
abbrev chunk (x2 : Vec F S8192x256 .bf16) (k : Fin k1_t1_loop.trips) : Vec F S512x256 .bf16 :=
  View.ld x2 (Rect.unit (s := S8192x256) (k1_off1 k) S512x256.size (k1_off1_inb k))

/-- The carried column before trip n: zero, then one trip payload per chunk. -/
def accN (v0 : Vec F S1024x256 .f32) (x2 : Vec F S8192x256 .bf16) : ℕ → FVec F S1024x1 .f32
  | 0 => k1_pay2
  | n + 1 => if h : n < k1_t1_loop.trips then k1_pay3 v0 (accN v0 x2 n) (chunk x2 ⟨n, h⟩) else accN v0 x2 n

/-- One trip: the trip payload of the carried column and the chunk the trip loads. -/
theorem trip_eq (c : Dev nD) (i : grid1.Coords) (a1 : Memref sig .tc .vmem S1024x256 .f32) (h1 : a1.IsWhole)
    (a2 : Memref sig .tc .vmem S1024x256 .f32) (h2 : a2.IsWhole) (a3 : Memref sig .tc .vmem S8192x256 .bf16) (h3 : a3.IsWhole)
    (a4 : Memref sig .tc .vmem S1024x1 .f32) (h4 : a4.IsWhole) (v0 : Vec F S1024x256 .f32) (x2 : Vec F S8192x256 .bf16)
    (k : Fin k1_t1_loop.trips) (acc : FVec F S1024x1 .f32) :
    tripR_k1_t1 (F := F) Variants.none c none i a1 h1 a2 h2 a3 h3 a4 h4 v0 (h3.unread x2) k acc = k1_pay3 v0 acc (chunk x2 k) := by
  unfold tripR_k1_t1 trip_k1_t1
  dsimp only
  simp only [View.readAt_eq_ld, h3.read_unread]

/-- The loop's carried value before trip n is the recursion over the trips. -/
theorem st_eq (c : Dev nD) (i : grid1.Coords) (a1 : Memref sig .tc .vmem S1024x256 .f32) (h1 : a1.IsWhole)
    (a2 : Memref sig .tc .vmem S1024x256 .f32) (h2 : a2.IsWhole) (a3 : Memref sig .tc .vmem S8192x256 .bf16) (h3 : a3.IsWhole)
    (a4 : Memref sig .tc .vmem S1024x1 .f32) (h4 : a4.IsWhole) (v0 : Vec F S1024x256 .f32) (x2 : Vec F S8192x256 .bf16) :
    ∀ n : ℕ, st_k1_t1 (F := F) Variants.none c none i a1 h1 a2 h2 a3 h3 a4 h4 v0 (h3.unread x2) k1_pay2 n = accN v0 x2 n
  | 0 => rfl
  | n + 1 => by
    have ih := st_eq c i a1 h1 a2 h2 a3 h3 a4 h4 v0 x2 n
    rw [st_k1_t1.eq_2]; unfold st_k1_t1Step
    rw [ih]
    show _ = (if h : n < k1_t1_loop.trips then k1_pay3 v0 (accN v0 x2 n) (chunk x2 ⟨n, h⟩) else accN v0 x2 n)
    by_cases h : n < k1_t1_loop.trips
    · rw [dif_pos h, dif_pos h, trip_eq]
    · rw [dif_neg h, dif_neg h]

/-- The body's one store: the last payload of the input blocks and the loop's result after all its trips. -/
theorem out1_eq (c : Dev nD) (i : grid1.Coords) (a1 : Memref sig .tc .vmem S1024x256 .f32) (h1 : a1.IsWhole)
    (a2 : Memref sig .tc .vmem S1024x256 .f32) (h2 : a2.IsWhole) (a3 : Memref sig .tc .vmem S8192x256 .bf16) (h3 : a3.IsWhole)
    (a4 : Memref sig .tc .vmem S1024x1 .f32) (h4 : a4.IsWhole) (x0 x1 : Vec F S1024x256 .f32) (x2 : Vec F S8192x256 .bf16) :
    out1_A_3 c i a1 h1 a2 h2 a3 h3 a4 h4 x0 x1 x2 = k1_pay4 x0 x1 (accN x0 x2 k1_t1_loop.trips) := by
  unfold out1_A_3
  rw [View.read_writes_eq_canon _ _ _ (cover1_A_3 c i a1 h1 a2 h2 a3 h3 a4 h4 x0 x1 x2)]
  unfold kernelRun1_A
  dsimp only
  rw [View.canon_unit_zero hz]
  simp only [View.readAt_eq_ld, h1.read_unread, h2.read_unread, View.ld_unit_zero (S := S1024x256) hz]
  rw [st_eq]

end Cert.KernelIdeal.KBody

end
-- ==== Proof.KBlocks1.lean ====
/-
  Where the main region's blocks sit in their arrays.

  At grid point t the two row inputs are read through blocks of 1024 rows starting at row 1024·t, the resident
  normalised array through its one whole block, and the output column is written back as rows 1024·t … 1024·t + 1023
  of the [8192, 1] result. The eight output blocks tile that column.
-/
import proofs.«168930_j29953101922499_2_alg».proof.Proof.Gen.KernelIdeal.Frame
import Idealize.ShloMosaic.Lib.Pipeline.Value
import Idealize.ShloMosaic.Lib.ValueIdx

noncomputable section

namespace Cert.KernelIdeal.KBlocks1

open Cert.KernelIdeal Cert.KernelIdeal.Gen
open Idealize.ShloMosaic Idealize.ShloMosaic.TcCoe Idealize.ShloMosaic.ValueIdx Idealize.SL.Sem
open Idealize.ShloMosaic.Pipeline (Dat)

variable {F : FTy → Type} [FloatOps F]
variable (V : (c : Dev nD) → (b : Ref sig .tc) → Buf (Elt F) ((c : Thread nD τ).loc b))

/-- The printed index maps, decided over the grid: the row windows sit at block row t, the resident one at the origin. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem row_lt (t : Fin cfg1.N) (p : Fin 1024) : 1024 * t.val + p.val < 8192 := by
  have hN : cfg1.N = 8 := N_1
  have := t.isLt; have := p.isLt; omega

/-- Row p of the first input's block at point t is row 1024·t + p of the array. -/
theorem blk_i (c : Dev nD) (t : Fin cfg1.N) (p : Fin 1024) (d : Fin 256) :
    iblk1 V c 0 t (ix2 p d) = V c main_arg0 (ix2 ⟨1024 * t.val + p.val, row_lt t p⟩ d) := by
  obtain ⟨e0, e1, -⟩ := index_facts t
  show V c main_arg0 (((cfg1.win 0).blk t).view.emb (ix2 p d)) = _
  refine congrArg (V c main_arg0) (funext fun a => Fin.ext ?_)
  match a with
  | ⟨0, _⟩ => show win1_0.index t (0 : Fin 2) * 1024 + 1 * p.val = 1024 * t.val + p.val; rw [e0]; omega
  | ⟨1, _⟩ => show win1_0.index t (1 : Fin 2) * 256 + 1 * d.val = d.val; rw [e1]; omega

/-- Row p of the second input's block at point t is row 1024·t + p of the array. -/
theorem blk_j (c : Dev nD) (t : Fin cfg1.N) (p : Fin 1024) (d : Fin 256) :
    iblk1 V c 1 t (ix2 p d) = V c main_arg1 (ix2 ⟨1024 * t.val + p.val, row_lt t p⟩ d) := by
  obtain ⟨-, -, e0, e1, -⟩ := index_facts t
  show V c main_arg1 (((cfg1.win 1).blk t).view.emb (ix2 p d)) = _
  refine congrArg (V c main_arg1) (funext fun a => Fin.ext ?_)
  match a with
  | ⟨0, _⟩ => show win1_1.index t (0 : Fin 2) * 1024 + 1 * p.val = 1024 * t.val + p.val; rw [e0]; omega
  | ⟨1, _⟩ => show win1_1.index t (1 : Fin 2) * 256 + 1 * d.val = d.val; rw [e1]; omega

/-- The resident window's one block is the whole normalised array. -/
theorem blk_k (c : Dev nD) (t : Fin cfg1.N) (r : Fin 8192) (d : Fin 256) :
    iblk1 V c 2 t (ix2 r d) = V c main_v0 (ix2 r d) := by
  obtain ⟨-, -, -, -, e0, e1, -⟩ := index_facts t
  show V c main_v0 (((cfg1.win 2).blk t).view.emb (ix2 r d)) = _
  refine congrArg (V c main_v0) (funext fun a => Fin.ext ?_)
  match a with
  | ⟨0, _⟩ => show win1_2.index t (0 : Fin 2) * 8192 + 1 * r.val = r.val; rw [e0]; omega
  | ⟨1, _⟩ => show win1_2.index t (1 : Fin 2) * 256 + 1 * d.val = d.val; rw [e1]; omega

/-- An index of the result column is in point t's block iff each coordinate is in the block's range on its axis. -/
theorem mem_blk (t : Fin cfg1.N) (i : S8192x1.Idx) :
    i ∈ ((cfg1.win 3).blk t).view.set ↔ ∀ a : Fin 2, win1_3.index t a * S1024x1.size a ≤ (i a).val ∧ (i a).val < win1_3.index t a * S1024x1.size a + S1024x1.size a := by
  show i ∈ ((View.whole main_v1).slice (win1_3.rect t)).set ↔ _
  rw [View.set_slice_whole, Rect.mem_set_unit]
  exact Iff.rfl

/-- Every row of the result column is written back by the point that owns its block of 1024 rows. -/
theorem cover (i : S8192x1.Idx) : ∃ t : Fin cfg1.N, (cfg1.win 3).flush t = true ∧ i ∈ ((cfg1.win 3).blk t).view.set := by
  have hN : cfg1.N = 8 := N_1
  have hi0 : (i 0).val < 8192 := (i 0).isLt
  have hi1 : (i 1).val < 1 := (i 1).isLt
  refine ⟨⟨(i 0).val / 1024, by omega⟩, flush1_3 _, ?_⟩
  rw [mem_blk]
  obtain ⟨-, -, -, -, -, -, e0, e1⟩ := index_facts ⟨(i 0).val / 1024, by omega⟩
  intro a
  match a with
  | ⟨0, _⟩ => show win1_3.index _ (0 : Fin 2) * 1024 ≤ (i 0).val ∧ (i 0).val < win1_3.index _ (0 : Fin 2) * 1024 + 1024; rw [e0]; dsimp only; omega
  | ⟨1, _⟩ => show win1_3.index _ (1 : Fin 2) * 1 ≤ (i 1).val ∧ (i 1).val < win1_3.index _ (1 : Fin 2) * 1 + 1; rw [e1]; omega

end Cert.KernelIdeal.KBlocks1

end
-- ==== Proof.KPay3.lean ====
/-
  The main kernel body's accumulating payloads, read at an index.

  The carried column starts at zero. One trip of the loop takes a chunk of 512 resident rows and, for every row p of the
  block, forms the 512 inner products of the normalised row p with the chunk's rows (a product of the block with the
  transposed chunk, accumulated into zeros; the change of float format before it is the identity on the extended
  reals), scales them by the word for 2.0 and exponentiates. The 512 exponentials of a row are then cut into four
  groups of 128 consecutive columns, column 128·g + l being lane l of group g; the groups are added lane by lane to a
  zero, one after the other, and the 128 lane values are summed. That sum is added to the carried column. After the
  loop the last payload is log(exp(2·pos) + acc) − 2·pos, pos the inner product of the two normalised rows.
-/
import proofs.«168930_j29953101922499_2_alg».proof.Proof.KPay

noncomputable section

open scoped BigOperators

namespace Cert.KernelIdeal.KPay

open Cert.KernelIdeal Cert.KernelIdeal.Gen Cert.NTXent
open Idealize.ShloMosaic Idealize.ShloMosaic.ValueIdx

/-- Row 128·g + l of a 512-row chunk: lane l of group g. -/
def lane (g : Fin 4) (l : Fin 128) : Fin 512 := ⟨128 * g.val + l.val, by have := g.isLt; have := l.isLt; omega⟩

/-- One term of a chunk: the exponential of the inner product with row j of the chunk, times the word for 2.0. -/
def chunkTerm (zi : Fin 256 → EReal) (v : Vec Ideal S512x256 .bf16) (j : Fin 512) : EReal := Ideal.exp (dot zi (rows v j) * two)

/-- The carried column's initial value is zero everywhere. -/
theorem pay2_apply (j : S1024x1.Idx) : k1_pay2 (F := Ideal) j = 0 := by
  show Ideal.ofBits .f32 0x00000000#32 = 0
  exact Ideal.ofBits_zero_f32

/-- A slice of 128 consecutive columns from column o on, read at (p, l): the matrix at (p, o + l). -/
theorem slice_apply (o : ℕ) (ho : o + 128 ≤ 512) (v : FVec Ideal S1024x512 .f32) (h : S1024x512.Slices ![0, o] S1024x128)
    (p : Fin 1024) (l : Fin 128) :
    extractStridedSlice S1024x128 ![0, o] v h (ix2 p l) = v (ix2 p (⟨o + l.val, by have := l.isLt; omega⟩ : Fin 512)) :=
  extractStridedSlice_apply _ v h _ _ fun a => by
    match a with
    | ⟨0, _⟩ => exact (Nat.zero_add _).symm
    | ⟨1, _⟩ => rfl

/-- The scaled exponential matrix of a chunk at (p, j): the chunk's term for row j against the normalised row p. -/
theorem expMat_apply (v0 : Vec Ideal S1024x256 .f32) (v35 : Vec Ideal S512x256 .bf16) (p : Fin 1024) (j : Fin 512) :
    exp (mulf (matmul dot_S1024x256_S512x256_S1024x512_1_1_0_0_n_n none (truncf .bf16 (k1_pay1 v0) bitsLt_bf16_f32)
        (shapeCast S512x256 v35 shapeCasts_S512x256_S512x256 : FVec Ideal S512x256 .bf16) (constant (F := Ideal) S1024x512 .f32 0x00000000#32))
      (broadcast S1024x512 (Scalar.ofBits (F := Ideal) .f32 0x40000000#32))) (ix2 p j)
      = chunkTerm (unitVec (rows v0 p)) v35 j := by
  show Ideal.exp (matmul dot_S1024x256_S512x256_S1024x512_1_1_0_0_n_n none (truncf .bf16 (k1_pay1 v0) bitsLt_bf16_f32)
        (shapeCast S512x256 v35 shapeCasts_S512x256_S512x256 : FVec Ideal S512x256 .bf16) (constant (F := Ideal) S1024x512 .f32 0x00000000#32) (ix2 p j) * two)
      = Ideal.exp (dot (unitVec (rows v0 p)) (rows v35 j) * two)
  refine congrArg (fun t => Ideal.exp (t * two)) ?_
  refine (Idealize.ShloMosaic.LibDotT.matmul_zero_nt dot_S1024x256_S512x256_S1024x512_1_1_0_0_n_n rfl rfl rfl rfl rfl rfl none
    (truncf .bf16 (k1_pay1 v0) bitsLt_bf16_f32) (shapeCast S512x256 v35 shapeCasts_S512x256_S512x256 : FVec Ideal S512x256 .bf16) p j).trans ?_
  show _ = ∑ d : Fin 256, unitVec (rows v0 p) d * rows v35 j d
  refine Finset.sum_congr rfl fun k _ => ?_
  refine congrArg₂ (· * ·) ?_ ?_
  · exact pay1_apply v0 p k
  · exact congrFun (shapeCast_self v35 shapeCasts_S512x256_S512x256) (ix2 j k)

/-- Four groups of 128 columns of a 512-column matrix added lane by lane to a zero, the lanes then summed, as a column at
    (p, u): if row p of the matrix is t, the sum over the lanes l of 0 + t(l) + t(128 + l) + t(256 + l) + t(384 + l). -/
theorem lane_sum (E : FVec Ideal S1024x512 .f32) (t : Fin 512 → EReal) (p : Fin 1024) (hE : ∀ j : Fin 512, E (ix2 p j) = t j)
    (u : Fin 1) :
    shapeCast S1024x1 (multiReduction (F := Ideal) .add [1] S1024
        (addf (addf (addf (addf (broadcast S1024x128 (Scalar.ofBits (F := Ideal) .f32 0x00000000#32))
            (extractStridedSlice S1024x128 ![0, 0] E slices_S1024x512_o0_0_S1024x128))
          (extractStridedSlice S1024x128 ![0, 128] E slices_S1024x512_o0_128_S1024x128))
          (extractStridedSlice S1024x128 ![0, 256] E slices_S1024x512_o0_256_S1024x128))
          (extractStridedSlice S1024x128 ![0, 384] E slices_S1024x512_o0_384_S1024x128))
        0x00000000#32 reduces_S1024x128_S1024 (.inl rfl) rfl) shapeCasts_S1024_S1024x1 (ix2 p u)
      = ∑ l : Fin 128, ((((0 + t (lane 0 l)) + t (lane 1 l)) + t (lane 2 l)) + t (lane 3 l)) := by
  refine (Cert.LibColumn.shapeCast_a_a1_apply _ shapeCasts_S1024_S1024x1 p u).trans ?_
  refine (Cert.LibSumAxis.sum_second_axis _ reduces_S1024x128_S1024 (.inl rfl) rfl p).trans ?_
  refine Finset.sum_congr rfl fun l _ => ?_
  show (((Ideal.ofBits .f32 0x00000000#32
      + extractStridedSlice S1024x128 ![0, 0] E slices_S1024x512_o0_0_S1024x128 (ix2 p l))
      + extractStridedSlice S1024x128 ![0, 128] E slices_S1024x512_o0_128_S1024x128 (ix2 p l))
      + extractStridedSlice S1024x128 ![0, 256] E slices_S1024x512_o0_256_S1024x128 (ix2 p l))
      + extractStridedSlice S1024x128 ![0, 384] E slices_S1024x512_o0_384_S1024x128 (ix2 p l) = _
  refine congrArg₂ (· + ·) (congrArg₂ (· + ·) (congrArg₂ (· + ·) (congrArg₂ (· + ·) Ideal.ofBits_zero_f32 ?_) ?_) ?_) ?_
  · refine (slice_apply 0 (by omega) E _ p l).trans ((hE _).trans (congrArg t (Fin.ext ?_)))
    show 0 + l.val = 128 * 0 + l.val
    omega
  · refine (slice_apply 128 (by omega) E _ p l).trans ((hE _).trans (congrArg t (Fin.ext ?_)))
    show 128 + l.val = 128 * 1 + l.val
    omega
  · refine (slice_apply 256 (by omega) E _ p l).trans ((hE _).trans (congrArg t (Fin.ext ?_)))
    show 256 + l.val = 128 * 2 + l.val
    omega
  · refine (slice_apply 384 (by omega) E _ p l).trans ((hE _).trans (congrArg t (Fin.ext ?_)))
    show 384 + l.val = 128 * 3 + l.val
    omega

/-- One trip's new carried column at (p, u): the old one plus the chunk's lane-wise sum of its 512 terms. -/
theorem pay3_apply (v0 : Vec Ideal S1024x256 .f32) (acc : FVec Ideal S1024x1 .f32) (v35 : Vec Ideal S512x256 .bf16) (p : Fin 1024) (u : Fin 1) :
    k1_pay3 v0 acc v35 (ix2 p u) = acc (ix2 p u) + ∑ l : Fin 128,
      ((((0 + chunkTerm (unitVec (rows v0 p)) v35 (lane 0 l)) + chunkTerm (unitVec (rows v0 p)) v35 (lane 1 l))
        + chunkTerm (unitVec (rows v0 p)) v35 (lane 2 l)) + chunkTerm (unitVec (rows v0 p)) v35 (lane 3 l)) := by
  unfold k1_pay3
  show acc (ix2 p u) + shapeCast S1024x1 _ shapeCasts_S1024_S1024x1 (ix2 p u) = _
  refine congrArg (acc (ix2 p u) + ·) ?_
  exact lane_sum _ (chunkTerm (unitVec (rows v0 p)) v35) p (fun j => expMat_apply v0 v35 p j) u

/-- The inner product of the two normalised blocks' rows p, as a column at (p, u). -/
theorem pos_apply (v0 v1 : Vec Ideal S1024x256 .f32) (p : Fin 1024) (u : Fin 1) :
    shapeCast S1024x1 (multiReduction (F := Ideal) .add [1] S1024
        (mulf (k1_pay1 v0) (divf v1 (broadcastTo S1024x256 (maximumf (sqrt (shapeCast S1024x1 (multiReduction .add [1] S1024 (mulf v1 v1) 0x00000000#32 reduces_S1024x256_S1024 (.inl rfl) rfl) shapeCasts_S1024_S1024x1))
          (broadcast S1024x1 (Scalar.ofBits (F := Ideal) .f32 0x2B8CBCCC#32))) broadcasts_S1024x1_S1024x256)))
        0x00000000#32 reduces_S1024x256_S1024 (.inl rfl) rfl) shapeCasts_S1024_S1024x1 (ix2 p u)
      = dot (unitVec (rows v0 p)) (unitVec (rows v1 p)) := by
  refine (Cert.LibColumn.shapeCast_a_a1_apply _ shapeCasts_S1024_S1024x1 p u).trans ?_
  refine (Cert.LibSumAxis.sum_second_axis _ reduces_S1024x256_S1024 (.inl rfl) rfl p).trans ?_
  show _ = ∑ d : Fin 256, unitVec (rows v0 p) d * unitVec (rows v1 p) d
  refine Finset.sum_congr rfl fun k _ => ?_
  exact congrArg₂ (· * ·) (pay1_apply v0 p k) (unit_entry v1 p k)

/-- The stored row loss at (p, u): log(exp(2·pos) + acc) − 2·pos. -/
theorem pay4_apply (v0 v1 : Vec Ideal S1024x256 .f32) (acc : FVec Ideal S1024x1 .f32) (p : Fin 1024) (u : Fin 1) :
    k1_pay4 v0 v1 acc (ix2 p u) = Ideal.log (Ideal.exp (dot (unitVec (rows v0 p)) (unitVec (rows v1 p)) * two) + acc (ix2 p u))
      - dot (unitVec (rows v0 p)) (unitVec (rows v1 p)) * two := by
  unfold k1_pay4
  exact congrArg (fun t => Ideal.log (Ideal.exp (t * two) + acc (ix2 p u)) - t * two) (pos_apply v0 v1 p u)

end Cert.KernelIdeal.KPay

end
-- ==== Proof.KFinal1.lean ====
/-
  What the main region leaves in the result column.

  At every row r the column ends holding the row loss in the kernel's form: with ẑ the normalised rows,
  log(exp(2·⟨ẑi(r), ẑj(r)⟩) + acc) − 2·⟨ẑi(r), ẑj(r)⟩, where acc is the running sum after sixteen chunks of the
  exponentials exp(2·⟨ẑi(r), zk(c)⟩) over the rows c of the resident array. The carried column before trip n, read at a
  row, is that running sum before chunk n (chunk k's row 128·g + l is the resident array's row 512·k + 128·g + l); the
  stored payload at a row of a block is the row loss of that block row; and block row p of point t is row 1024·t + p.
-/
import proofs.«168930_j29953101922499_2_alg».proof.Proof.KBody
import proofs.«168930_j29953101922499_2_alg».proof.Proof.KBlocks1
import proofs.«168930_j29953101922499_2_alg».proof.Proof.KPay3

noncomputable section

open scoped BigOperators

namespace Cert.KernelIdeal.KFinal1

open Cert.KernelIdeal Cert.KernelIdeal.Gen Cert.NTXent Cert.KernelIdeal.KPay Cert.KernelIdeal.KBody Cert.KernelIdeal.KBlocks1
open Idealize.ShloMosaic Idealize.ShloMosaic.TcCoe Idealize.ShloMosaic.ValueIdx Idealize.SL.Sem
open Idealize.ShloMosaic.Pipeline (Dat)

/-- The loop makes sixteen trips. -/
theorem trips16 : k1_t1_loop.trips = 16 := by decide +kernel

/-- Row j of chunk k is row 512·k + j of the resident array. -/
theorem chunk_row (x2 : Vec Ideal S8192x256 .bf16) (k : Fin k1_t1_loop.trips) (hk : k.val < 16) (j : Fin 512) (d : Fin 256) :
    chunk x2 k (ix2 j d) = x2 (ix2 ⟨512 * k.val + j.val, by have := j.isLt; omega⟩ d) := by
  have e0 : k1_off1 k 0 = 512 * k.val := congrFun (k1_off1_eq k) 0
  have e1 : k1_off1 k 1 = 0 := congrFun (k1_off1_eq k) 1
  show x2 ((Rect.unit (s := S8192x256) (k1_off1 k) S512x256.size (k1_off1_inb k)).idx (ix2 j d)) = _
  refine congrArg x2 (funext fun a => Fin.ext ?_)
  match a with
  | ⟨0, _⟩ => show k1_off1 k 0 + 1 * j.val = 512 * k.val + j.val; rw [e0]; omega
  | ⟨1, _⟩ => show k1_off1 k 1 + 1 * d.val = d.val; rw [e1]; omega

/-- A chunk's term at lane l of group g is the denominator's term at column 512·k + 128·g + l. -/
theorem term_eq (zi : Fin 256 → EReal) (x2 : Vec Ideal S8192x256 .bf16) (k : Fin k1_t1_loop.trips) (hk : k.val < 16) (g : Fin 4) (l : Fin 128) :
    chunkTerm zi (chunk x2 k) (lane g l) = kTerm zi (rows x2) (col ⟨k.val, hk⟩ g l) := by
  unfold chunkTerm kTerm
  refine congrArg (fun v => Ideal.exp (dot zi v * two)) (funext fun d => ?_)
  refine (chunk_row x2 k hk (lane g l) d).trans (congrArg (fun r => x2 (ix2 r d)) (Fin.ext ?_))
  show 512 * k.val + (128 * g.val + l.val) = 512 * k.val + 128 * g.val + l.val
  omega

/-- The carried column before trip n, at row p: the running sum before chunk n. -/
theorem acc_apply (v0 : Vec Ideal S1024x256 .f32) (x2 : Vec Ideal S8192x256 .bf16) (p : Fin 1024) (u : Fin 1) :
    ∀ n : ℕ, accN v0 x2 n (ix2 p u) = kAcc (unitVec (rows v0 p)) (rows x2) n
  | 0 => pay2_apply _
  | n + 1 => by
    have ih := acc_apply v0 x2 p u n
    by_cases h : n < k1_t1_loop.trips
    · have h16 : n < 16 := trips16 ▸ h
      rw [accN, dif_pos h, kAcc, dif_pos h16, pay3_apply, ih]
      refine congrArg (_ + ·) (Finset.sum_congr rfl fun l _ => ?_)
      rw [term_eq _ x2 ⟨n, h⟩ h16 0 l, term_eq _ x2 ⟨n, h⟩ h16 1 l, term_eq _ x2 ⟨n, h⟩ h16 2 l, term_eq _ x2 ⟨n, h⟩ h16 3 l]
    · have h16 : ¬ n < 16 := trips16 ▸ h
      rw [accN, dif_neg h, kAcc, dif_neg h16, ih, add_zero]

/-- The stored column of a block, at a row: the row loss of that block row against the resident array. -/
theorem point_value (x0 x1 : Vec Ideal S1024x256 .f32) (x2 : Vec Ideal S8192x256 .bf16) (y : S1024x1.Idx) :
    k1_pay4 x0 x1 (accN x0 x2 k1_t1_loop.trips) y
      = kRowLoss (rows x0 ⟨(y 0).val, (y 0).isLt⟩) (rows x1 ⟨(y 0).val, (y 0).isLt⟩) (rows x2) := by
  obtain ⟨p, u, rfl⟩ : ∃ (p : Fin 1024) (u : Fin 1), y = ix2 p u := ⟨y 0, y 1, eq_ix2 y⟩
  rw [pay4_apply, acc_apply, trips16]
  rfl

/-- The row losses in the kernel's form, as the [8192, 1] column. -/
def G1 (xi xj : Vec Ideal S8192x256 .f32) (zk : Vec Ideal S8192x256 .bf16) : Vec Ideal S8192x1 .f32 :=
  fun i => kRowLoss (rows xi ⟨(i 0).val, (i 0).isLt⟩) (rows xj ⟨(i 0).val, (i 0).isLt⟩) (rows zk)

theorem G1_apply (xi xj : Vec Ideal S8192x256 .f32) (zk : Vec Ideal S8192x256 .bf16) (r : Fin 8192) (u : Fin 1) :
    G1 xi xj zk (ix2 r u) = kRowLoss (rows xi r) (rows xj r) (rows zk) := rfl

variable (V : (c : Dev nD) → (b : Ref sig .tc) → Buf (Elt Ideal) ((c : Thread nD τ).loc b))

/-- What point t writes back is block t of the column of row losses of the arrays as the region finds them. -/
theorem flushed_eq (c : Dev nD) (t : Fin cfg1.N) :
    (dat1 V c).flushed 3 t = ((cfg1.win 3).blk t).view.read (Elt Ideal) (G1 (V c main_arg0) (V c main_arg1) (V c main_v0)) := by
  show (cfg1.win 3).cut (grid1.coords t) ((dat1 V c).after 3 t) = _
  rw [after1_3]
  unfold outsAt1
  rw [out1_eq]
  obtain ⟨-, -, -, -, -, -, e0, -⟩ := index_facts t
  funext y
  show k1_pay4 (iblk1 V c 0 t) (iblk1 V c 1 t) (accN (iblk1 V c 0 t) (iblk1 V c 2 t) k1_t1_loop.trips) y
    = G1 (V c main_arg0) (V c main_arg1) (V c main_v0) (((cfg1.win 3).blk t).view.emb y)
  refine (point_value (iblk1 V c 0 t) (iblk1 V c 1 t) (iblk1 V c 2 t) y).trans ?_
  have hy : (y 0).val < 1024 := (y 0).isLt
  have hrow : (((cfg1.win 3).blk t).view.emb y 0).val = 1024 * t.val + (y 0).val := by
    show win1_3.index t (0 : Fin 2) * 1024 + 1 * (y 0).val = _
    rw [e0]; omega
  have hi : rows (iblk1 V c 0 t) ⟨(y 0).val, hy⟩ = rows (V c main_arg0) ⟨(((cfg1.win 3).blk t).view.emb y 0).val, (((cfg1.win 3).blk t).view.emb y 0).isLt⟩ :=
    funext fun d => (blk_i V c t ⟨(y 0).val, hy⟩ d).trans (congrArg (fun r => V c main_arg0 (ix2 r d)) (Fin.ext hrow.symm))
  have hj : rows (iblk1 V c 1 t) ⟨(y 0).val, hy⟩ = rows (V c main_arg1) ⟨(((cfg1.win 3).blk t).view.emb y 0).val, (((cfg1.win 3).blk t).view.emb y 0).isLt⟩ :=
    funext fun d => (blk_j V c t ⟨(y 0).val, hy⟩ d).trans (congrArg (fun r => V c main_arg1 (ix2 r d)) (Fin.ext hrow.symm))
  have hk : rows (iblk1 V c 2 t) = rows (V c main_v0) := funext fun r => funext fun d => blk_k V c t r d
  show kRowLoss (rows (iblk1 V c 0 t) ⟨(y 0).val, hy⟩) (rows (iblk1 V c 1 t) ⟨(y 0).val, hy⟩) (rows (iblk1 V c 2 t)) = kRowLoss _ _ _
  rw [hi, hj, hk]

/-- The result column after the region: the row losses, in the kernel's form, of the arrays as the region finds them. -/
theorem final1 (c : Dev nD) :
    (dat1 V c).arrAt 3 cfg1.N = G1 (V c main_arg0) (V c main_arg1) (V c main_v0) :=
  (dat1 V c).arrAt_eq_of_cover 3 (G1 (V c main_arg0) (V c main_arg1) (V c main_v0)) (fun t _ => flushed_eq V c t) cover

end Cert.KernelIdeal.KFinal1

end
-- ==== Proof.LibTileSum.lean ====
/-
  A sum over T·R consecutive indices, regrouped into T tiles of R: the sum over n < T·R of f n is the sum over the tiles
  t < T of the sums over the rows r < R of f (R·t + r). A reordering of a finite sum in a commutative monoid: it holds
  on the extended reals with no finiteness condition.
-/
import Mathlib.Algebra.BigOperators.Fin
import Mathlib.Logic.Equiv.Fin.Basic

open scoped BigOperators

namespace LibTileSum

/-- A sum over T·R indices is the sum over T tiles of the sums over their R rows. -/
theorem sum_tiles {M : Type*} [AddCommMonoid M] (T R : ℕ) (f : Fin (T * R) → M) :
    ∑ n : Fin (T * R), f n
      = ∑ t : Fin T, ∑ r : Fin R, f ⟨R * t.val + r.val, by
          have ht := t.isLt; have hr := r.isLt
          have h1 : R * (t.val + 1) ≤ R * T := Nat.mul_le_mul_left _ ht
          rw [Nat.mul_succ] at h1
          rw [Nat.mul_comm T R]; omega⟩ := by
  rw [← Equiv.sum_comp finProdFinEquiv f, Fintype.sum_prod_type]
  refine Finset.sum_congr rfl fun t _ => Finset.sum_congr rfl fun r _ => congrArg f (Fin.ext ?_)
  show r.val + R * t.val = R * t.val + r.val
  omega

end LibTileSum
-- ==== Proof.Algebra.lean ====
/-
  The two forms of the contrastive loss agree on every batch of extended reals.

  Two laws join them. First, the temperature: the word for 2.0 denotes the real 2 and the word for 0.5 the real 1/2, and
  dividing an extended real x by a non-zero finite real y is multiplying x by the real 1/y, with no condition on x; at
  y = 1/2 this says x / (1/2) = x · 2, so the kernel's scaled similarities are the reference's, infinite ones included.
  Second, the denominator: addition on the extended reals is commutative and associative with 0 neutral (⊤ + ⊥ = ⊥ is a
  convention, but it breaks neither law), so a finite sum may be regrouped and reordered freely. The kernel's running
  sum after sixteen chunks is the sum of the chunks; a chunk is, lane by lane, the sum of its four groups' terms (the
  leading zero drops); and the 8192 columns are exactly the columns 512·k + 128·g + l, each once, so summing over the
  chunks k, the lanes l and the groups g is summing over all columns. With the two laws the row losses are equal term by
  term, hence so are their means.
-/
import proofs.«168930_j29953101922499_2_alg».proof.Proof.Spec
import proofs.«168930_j29953101922499_2_alg».proof.Proof.LibTileSum
import Idealize.ShloMosaic.PureOps.Ideal
import Mathlib.Algebra.BigOperators.Fin

noncomputable section

open scoped BigOperators

namespace Cert.NTXent

open Idealize.ShloMosaic

/-! ### The temperature: times 2 is divided by 1/2 -/

/-- The word for 2.0 denotes the real 2. -/
theorem two_eq : two = ((2 : ℝ) : EReal) := by
  simp [two, Ideal.ofBits, Ideal.ieee, -EReal.coe_mul]; norm_num

/-- The word for 0.5 denotes the real 1/2. -/
theorem half_eq : half = ((1 / 2 : ℝ) : EReal) := by
  simp [half, Ideal.ofBits, Ideal.ieee, -EReal.coe_mul]; norm_num

/-- Multiplying by 2 is dividing by 1/2, for every extended real: 1/2 is finite and not zero, so the quotient is the
    product with the real inverse 1 / (1/2) = 2. -/
theorem mul_two_eq_div_half (x : EReal) : x * two = Ideal.div x half := by
  have h : (1 / (1 / 2 : ℝ) : ℝ) = 2 := by norm_num
  rw [two_eq, half_eq, Ideal.div_coe (by norm_num : (1 / 2 : ℝ) ≠ 0), h]

/-! ### The denominator: sixteen chunks of 128 lanes of four groups are the 8192 columns -/

/-- The running sum before chunk n is the sum of the contributions of the chunks below n. -/
theorem kAcc_eq_sum_range (zi : Fin 256 → EReal) (zk : Fin 8192 → Fin 256 → EReal) (n : ℕ) :
    kAcc zi zk n = ∑ k ∈ Finset.range n, (if h : k < 16 then kChunk zi zk ⟨k, h⟩ else 0) := by
  induction n with
  | zero => rfl
  | succ n ih => rw [Finset.sum_range_succ, ← ih]; rfl

/-- After sixteen chunks the running sum is the sum of the sixteen chunks. -/
theorem kAcc_sixteen_chunks (zi : Fin 256 → EReal) (zk : Fin 8192 → Fin 256 → EReal) :
    kAcc zi zk 16 = ∑ k : Fin 16, kChunk zi zk k := by
  rw [kAcc_eq_sum_range, Finset.sum_range]
  refine Finset.sum_congr rfl fun k _ => ?_
  rw [dif_pos k.isLt]

/-- A chunk is, lane by lane, the sum of its four groups' terms: the zero the additions start from is neutral. -/
theorem kChunk_eq (zi : Fin 256 → EReal) (zk : Fin 8192 → Fin 256 → EReal) (k : Fin 16) :
    kChunk zi zk k = ∑ l : Fin 128, ∑ g : Fin 4, kTerm zi zk (col k g l) := by
  unfold kChunk
  refine Finset.sum_congr rfl fun l _ => ?_
  rw [Fin.sum_univ_four, zero_add]

/-- A sum over the 8192 columns, regrouped: 8192 = 16 · 512 and 512 = 4 · 128, so every column is 512·k + 128·g + l for
    exactly one chunk k, group g and lane l. -/
theorem sum_cols {M : Type*} [AddCommMonoid M] (f : Fin 8192 → M) :
    ∑ c : Fin 8192, f c = ∑ k : Fin 16, ∑ g : Fin 4, ∑ l : Fin 128, f (col k g l) := by
  refine (LibTileSum.sum_tiles 16 512 f).trans ?_
  refine Finset.sum_congr rfl fun k _ => ?_
  refine (LibTileSum.sum_tiles 4 128 (fun r : Fin (4 * 128) =>
    f ⟨512 * k.val + r.val, by have := k.isLt; have := r.isLt; omega⟩)).trans ?_
  refine Finset.sum_congr rfl fun g _ => Finset.sum_congr rfl fun l _ => congrArg f (Fin.ext ?_)
  show 512 * k.val + (128 * g.val + l.val) = 512 * k.val + 128 * g.val + l.val
  omega

/-- The kernel's denominator sum is the sum of its term over all 8192 columns. -/
theorem kAcc_sixteen (zi : Fin 256 → EReal) (zk : Fin 8192 → Fin 256 → EReal) :
    kAcc zi zk 16 = ∑ c : Fin 8192, kTerm zi zk c := by
  rw [kAcc_sixteen_chunks, sum_cols (fun c => kTerm zi zk c)]
  refine Finset.sum_congr rfl fun k _ => ?_
  rw [kChunk_eq, Finset.sum_comm]

/-! ### The two losses -/

/-- One row: the kernel's loss against the normalised rows is the reference's loss. -/
theorem kRowLoss_eq (vi vj : Fin 256 → EReal) (xk : Fin 8192 → Fin 256 → EReal) :
    kRowLoss vi vj (fun c => unitVec (xk c)) = rowLoss vi vj xk := by
  unfold kRowLoss rowLoss
  rw [kAcc_sixteen]
  simp only [kTerm, mul_two_eq_div_half]

/-- The means of the row losses agree. -/
theorem kLoss_eq (xi xj xk : Fin 8192 → Fin 256 → EReal) :
    kLoss xi xj (fun c => unitVec (xk c)) = loss xi xj xk := by
  unfold kLoss loss
  simp only [kRowLoss_eq]

end Cert.NTXent

end
-- ==== Proof.KValue.lean ====
/-
  The idealized kernel's result is the mean of the row losses.

  Reading the final valuation backwards: the result buffer is the host tail of the column the second region leaves;
  that column is the row losses, in the kernel's form, of the two row inputs as launched (no region writes them) and of
  the first region's output; the first region's output is the third input with every row normalised. The kernel's form
  of the loss equals the reference's form on every batch of extended reals, so the result is the specification's loss.
-/
import proofs.«168930_j29953101922499_2_alg».proof.Proof.KRun
import proofs.«168930_j29953101922499_2_alg».proof.Proof.KTail
import proofs.«168930_j29953101922499_2_alg».proof.Proof.KFinal0
import proofs.«168930_j29953101922499_2_alg».proof.Proof.KFinal1
import proofs.«168930_j29953101922499_2_alg».proof.Proof.Algebra

noncomputable section

open scoped BigOperators

namespace Cert.KernelIdeal.KValue

open Cert.KernelIdeal Cert.KernelIdeal.Gen Cert.NTXent
open Cert.KernelIdeal.KTail Cert.KernelIdeal.KFinal0 Cert.KernelIdeal.KFinal1
open Idealize.ShloMosaic Idealize.ShloMosaic.TcCoe Idealize.ShloMosaic.ValueIdx Idealize.SL.Sem

variable (m : (ℓ : Loc nD τ sig) → Buf (Elt Ideal) ℓ) (ρ : Dev nD → PrngReg)

/-- The second region finds the first input as launched. -/
theorem V1_arg0 (c : Dev nD) : V1 m ρ c main_arg0 = m ((c : Thread nD τ).loc main_arg0) :=
  W1_of_ne m ρ c main_arg0 (by decide)

/-- The second region finds the second input as launched. -/
theorem V1_arg1 (c : Dev nD) : V1 m ρ c main_arg1 = m ((c : Thread nD τ).loc main_arg1) :=
  W1_of_ne m ρ c main_arg1 (by decide)

/-- The second region finds, in the first region's output array, the third input with every row normalised. -/
theorem V1_v0 (c : Dev nD) : V1 m ρ c main_v0 = G0 (m ((c : Thread nD τ).loc main_arg2)) :=
  (W1_arr m ρ c 1).trans (final0 (V0 m ρ) c)

/-- The column the second region leaves: the row losses in the kernel's form. -/
theorem W2_v1 (c : Dev nD) : W2 m ρ c (Proc.devRef .tc main_v1)
    = G1 (m ((c : Thread nD τ).loc main_arg0)) (m ((c : Thread nD τ).loc main_arg1)) (G0 (m ((c : Thread nD τ).loc main_arg2))) := by
  refine (W2_arr m ρ c 3).trans ((final1 (V1 m ρ) c).trans ?_)
  rw [V1_arg0, V1_arg1, V1_v0]

/-- The rows of the normalised array are the normalised rows. -/
theorem rows_G0 (xk : Vec Ideal S8192x256 .f32) : rows (G0 xk) = fun c => unitVec (rows xk c) :=
  funext fun c => funext fun d => G0_apply xk c d

/-- The result buffer ends at the specification's loss of the three inputs. -/
theorem result_eq (c : Dev nD) : W3 m ρ c (Proc.devRef .tc main_v3)
    = fun _ => loss (rows (m ((c : Thread nD τ).loc main_arg0))) (rows (m ((c : Thread nD τ).loc main_arg1))) (rows (m ((c : Thread nD τ).loc main_arg2))) := by
  rw [W3_result, W2_v1]
  funext i
  rw [tail_apply]
  simp only [G1_apply, rows_G0]
  exact kLoss_eq _ _ _

/-- Every weakly fair execution of the idealized kernel ends with the result at the loss and the inputs as launched. -/
theorem run : θ_run defs (onTc (τ := τ) (main (F := Ideal))) ⟨m, fun _ => 0, ρ⟩ (fun r => ∀ c : Dev nD,
      r.2.mem ((c.tc : Thread nD τ).loc main_v3)
        = (fun _ => loss (rows (m ((c : Thread nD τ).loc main_arg0))) (rows (m ((c : Thread nD τ).loc main_arg1))) (rows (m ((c : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (Cert.KernelIdeal.KRun.run_value m ρ)

end Cert.KernelIdeal.KValue

end
-- ==== Proof.RefValue.lean ====
/-
  The reference program, read back one stage at a time, is the specification's mean of row losses.

  Each of the three inputs is an array of 8192 rows of 256 entries. Row by row the reference does this.
  * Normalisation (three copies, one per input). Every entry is squared, the 256 squares of a row are added to a zero,
    the square root of that sum is taken, the larger of it and the clamp ε is kept, that one number per row is
    spread along the row, and every entry of the row is divided by it: entry d of row r becomes
    v d / max (sqrt (Σ_k v k · v k)) ε with v the row, which is the d-th entry of the row's unit vector.
  * The matching pair. The entrywise products of the normalised rows r of the first and the second input are added
    to a zero: pos(r), the inner product of the two unit vectors. It is divided by the temperature word (one half).
  * All the other pairs. A contraction over the 256 entries of normalised row r of the first input against normalised
    row c of the third gives sim(r, c), the inner product of those two unit vectors, for all 8192 × 8192 pairs. Each is
    divided by the temperature word and exponentiated, and the 8192 exponentials of row r are added to a zero.
  * The row loss. exp(pos(r)/T) is added to that sum, the logarithm is taken, and pos(r)/T is subtracted.
  * The mean. The 8192 row losses are added to a zero, and the sum is divided by the word for 8192.

  At the ideal values every operation is the extended reals' own, a zero initial value drops out of its sum, and a sum
  over the index set of a one-axis array is the sum over its coordinate. So the last stage is the constant function
  whose value is the mean of the row losses, each row loss in the form that divides by the temperature.
-/
import proofs.«168930_j29953101922499_2_alg».proof.Proof.Spec
import proofs.«168930_j29953101922499_2_alg».proof.Proof.Gen.ReferenceIdeal.Read
import Idealize.ShloMosaic.Lib.ValueIdx
import Idealize.ShloMosaic.PureOps.Ideal.Laws

noncomputable section

open scoped BigOperators

namespace Cert.NTXent

open Idealize.ShloMosaic Idealize.ShloMosaic.ValueIdx Cert.ReferenceIdeal

/-- Entry d of row r of the normalised first input is entry d of that row's unit vector. -/
theorem unit_i (x : (⟨S8192x256, .f32⟩ : BufTy).Contents (Elt Ideal)) (r : Fin 8192) (d : Fin 256) :
    Read.val_main_v4 (F := Ideal) x (ix2 r d) = unitVec (rows x r) d := by
  have hk : ∀ k : Fin 256, Read.idx_main_call0_v1 (Read.idx_main_call0_v2 (Read.idx_main_v3 (ix2 r d))) k = ix2 r k :=
    fun k => funext fun a => by match a with | ⟨0, _⟩ => rfl | ⟨1, _⟩ => rfl
  rw [Read.val_main_v4_apply, Read.val_main_v3_apply, Read.val_main_v2_apply, Read.val_main_v0_apply,
    Read.val_main_call0_v2_apply, Read.val_main_call0_v1_apply, Read.val_main_v1_apply, Read.val_main_cst_apply,
    Read.val_main_call0_cst_apply]
  simp only [Read.val_main_call0_v0_apply, hk, Ideal.mulf_def, Ideal.hostDivf_def, Ideal.maximumf_def,
    Ideal.hostUnary_sqrt_def, Ideal.ofBits_def, Ideal.ofBits_zero_f32, zero_add]
  rfl

/-- Entry d of row r of the normalised second input is entry d of that row's unit vector. -/
theorem unit_j (x : (⟨S8192x256, .f32⟩ : BufTy).Contents (Elt Ideal)) (r : Fin 8192) (d : Fin 256) :
    Read.val_main_v9 (F := Ideal) x (ix2 r d) = unitVec (rows x r) d := by
  have hk : ∀ k : Fin 256, Read.idx_main_call1_v1 (Read.idx_main_call1_v2 (Read.idx_main_v8 (ix2 r d))) k = ix2 r k :=
    fun k => funext fun a => by match a with | ⟨0, _⟩ => rfl | ⟨1, _⟩ => rfl
  rw [Read.val_main_v9_apply, Read.val_main_v8_apply, Read.val_main_v7_apply, Read.val_main_v5_apply,
    Read.val_main_call1_v2_apply, Read.val_main_call1_v1_apply, Read.val_main_v6_apply, Read.val_main_cst_0_apply,
    Read.val_main_call1_cst_apply]
  simp only [Read.val_main_call1_v0_apply, hk, Ideal.mulf_def, Ideal.hostDivf_def, Ideal.maximumf_def,
    Ideal.hostUnary_sqrt_def, Ideal.ofBits_def, Ideal.ofBits_zero_f32, zero_add]
  rfl

/-- Entry d of row r of the normalised third input is entry d of that row's unit vector. -/
theorem unit_k (x : (⟨S8192x256, .f32⟩ : BufTy).Contents (Elt Ideal)) (r : Fin 8192) (d : Fin 256) :
    Read.val_main_v14 (F := Ideal) x (ix2 r d) = unitVec (rows x r) d := by
  have hk : ∀ k : Fin 256, Read.idx_main_call2_v1 (Read.idx_main_call2_v2 (Read.idx_main_v13 (ix2 r d))) k = ix2 r k :=
    fun k => funext fun a => by match a with | ⟨0, _⟩ => rfl | ⟨1, _⟩ => rfl
  rw [Read.val_main_v14_apply, Read.val_main_v13_apply, Read.val_main_v12_apply, Read.val_main_v10_apply,
    Read.val_main_call2_v2_apply, Read.val_main_call2_v1_apply, Read.val_main_v11_apply, Read.val_main_cst_1_apply,
    Read.val_main_call2_cst_apply]
  simp only [Read.val_main_call2_v0_apply, hk, Ideal.mulf_def, Ideal.hostDivf_def, Ideal.maximumf_def,
    Ideal.hostUnary_sqrt_def, Ideal.ofBits_def, Ideal.ofBits_zero_f32, zero_add]
  rfl

/-- The temperature word, broadcast along the batch, is one half. -/
theorem temp_row (i : S8192.Idx) : Read.val_main_v18 (F := Ideal) i = half := by
  rw [Read.val_main_v18_apply, Read.val_main_cst_3_apply]; rfl

/-- The temperature word, broadcast over all pairs, is one half. -/
theorem temp_pair (i : S8192x8192.Idx) : Read.val_main_v21 (F := Ideal) i = half := by
  rw [Read.val_main_v21_apply, Read.val_main_cst_4_apply]; rfl

/-- pos(r): the products of the normalised rows r of the first two inputs, added to a zero, are the inner product of
    the two unit vectors. -/
theorem pos_eq (x0 x1 : (⟨S8192x256, .f32⟩ : BufTy).Contents (Elt Ideal)) (r : Fin 8192) :
    Read.val_main_v16 (F := Ideal) x0 x1 (ix1 r) = dot (unitVec (rows x0 r)) (unitVec (rows x1 r)) := by
  have hk : ∀ k : Fin 256, Read.idx_main_v16 (ix1 r) k = ix2 r k :=
    fun k => funext fun a => by match a with | ⟨0, _⟩ => rfl | ⟨1, _⟩ => rfl
  rw [Read.val_main_v16_apply, Read.val_main_cst_2_apply]
  simp only [hk, Read.val_main_v15_apply, unit_i, unit_j, Ideal.mulf_def, Ideal.ofBits_def, Ideal.ofBits_zero_f32,
    zero_add]
  rfl

/-- pos(r) / T. -/
theorem posLogit_eq (x0 x1 : (⟨S8192x256, .f32⟩ : BufTy).Contents (Elt Ideal)) (r : Fin 8192) :
    Read.val_main_v19 (F := Ideal) x0 x1 (ix1 r) = Ideal.div (dot (unitVec (rows x0 r)) (unitVec (rows x1 r))) half := by
  rw [Read.val_main_v19_apply, pos_eq, temp_row, Ideal.hostDivf_def]

/-- sim(r, c): the contraction of normalised row r of the first input against normalised row c of the third is the
    inner product of the two unit vectors. -/
theorem sim_eq (x0 x2 : (⟨S8192x256, .f32⟩ : BufTy).Contents (Elt Ideal)) (r c : Fin 8192) :
    Read.val_main_v17 (F := Ideal) x0 x2 (ix2 r c) = dot (unitVec (rows x0 r)) (unitVec (rows x2 c)) := by
  have hl : ∀ k : Fin 256, Read.lidx_main_v17 (ix2 r c) k = ix2 r k :=
    fun k => funext fun a => by match a with | ⟨0, _⟩ => rfl | ⟨1, _⟩ => rfl
  have hr : ∀ k : Fin 256, Read.ridx_main_v17 (ix2 r c) k = ix2 c k :=
    fun k => funext fun a => by match a with | ⟨0, _⟩ => rfl | ⟨1, _⟩ => rfl
  rw [Read.val_main_v17_apply]
  simp only [hl, hr, unit_i, unit_k]
  rfl

/-- The 8192 exponentials exp(sim(r, c) / T) of row r, added to a zero. -/
theorem negSum_eq (x0 x2 : (⟨S8192x256, .f32⟩ : BufTy).Contents (Elt Ideal)) (r : Fin 8192) :
    Read.val_main_v24 (F := Ideal) x0 x2 (ix1 r)
      = ∑ c : Fin 8192, Ideal.exp (Ideal.div (dot (unitVec (rows x0 r)) (unitVec (rows x2 c))) half) := by
  have hk : ∀ k : Fin 8192, Read.idx_main_v24 (ix1 r) k = ix2 r k :=
    fun k => funext fun a => by match a with | ⟨0, _⟩ => rfl | ⟨1, _⟩ => rfl
  rw [Read.val_main_v24_apply, Read.val_main_cst_5_apply]
  simp only [hk, Read.val_main_v23_apply, Read.val_main_v22_apply, sim_eq, temp_pair, Ideal.hostDivf_def,
    Ideal.hostUnary_exp_def, Ideal.ofBits_def, Ideal.ofBits_zero_f32, zero_add]

/-- The row loss of row r, in the form that divides by the temperature. -/
theorem row_eq (x0 x1 x2 : (⟨S8192x256, .f32⟩ : BufTy).Contents (Elt Ideal)) (r : Fin 8192) :
    Read.val_main_v27 (F := Ideal) x0 x1 x2 (ix1 r) = rowLoss (rows x0 r) (rows x1 r) (rows x2) := by
  rw [Read.val_main_v27_apply, Read.val_main_v26_apply, Read.val_main_v25_apply, Read.val_main_v20_apply,
    posLogit_eq, negSum_eq, Ideal.subf_def, Ideal.addf_def, Ideal.hostUnary_log_def, Ideal.hostUnary_exp_def]
  rfl

/-- A one-axis index set is its coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The reference's result is the mean of the 8192 row losses. -/
theorem ref_value (x0 x1 x2 : (⟨Cert.ReferenceIdeal.S8192x256, .f32⟩ : BufTy).Contents (Elt Ideal)) :
    Cert.ReferenceIdeal.Read.val_main_v29 (F := Ideal) x0 x1 x2 = fun _ => loss (rows x0) (rows x1) (rows x2) := by
  funext i
  rw [Read.val_main_v29_apply, Read.val_main_v28_apply, Read.val_main_cst_6_apply, Read.val_main_cst_7_apply,
    sum_idx1]
  simp only [row_eq, Ideal.hostDivf_def, Ideal.ofBits_def, Ideal.ofBits_zero_f32, zero_add]
  rfl

end Cert.NTXent

end
-- ==== Proof.lean ====
/-
  A two-stage blocked kernel for the contrastive (NT-Xent) loss against its whole-array reference, over the extended reals.

  Both programs take three batches of 8192 rows of 256 floats. Every row is divided by its Euclidean norm clamped
  below by the same ε; for each row r, pos(r) is the inner product of the normalised rows r of the first two batches
  and sim(r, c) the inner product of normalised row r of the first batch with normalised row c of the third; the row
  loss is log(exp(pos/T) + Σ_c exp(sim(r, c)/T)) − pos/T at temperature T = 1/2, and the result is the mean of the
  8192 row losses. The reference divides by the word for 0.5 and sums each row's 8192 terms at once. The kernel
  normalises the third batch in a first grid of eight blocks, then, in a second grid of eight blocks of 1024 rows,
  multiplies by the word for 2.0 and accumulates a row's terms over sixteen chunks of 512 columns, each chunk as 128
  lanes of four strided groups; a host sum and a division by 8192 finish it. On the extended reals x·2 = x/(1/2) for
  every x and a finite sum may be regrouped freely, so the two results are the same extended real for all inputs: the
  proof does not use the finiteness precondition. The idealization rewrote nothing, so its conjunct is trivial.
-/
import proofs.«168930_j29953101922499_2_alg».proof.Defs
import proofs.«168930_j29953101922499_2_alg».proof.Proof.Gen.Kernel
import proofs.«168930_j29953101922499_2_alg».proof.Proof.Gen.Kernel.Skeleton
import proofs.«168930_j29953101922499_2_alg».proof.Proof.Gen.Kernel.Loops
import proofs.«168930_j29953101922499_2_alg».proof.Proof.Gen.Kernel.Launch
import proofs.«168930_j29953101922499_2_alg».proof.Proof.Gen.Kernel.Points
import proofs.«168930_j29953101922499_2_alg».proof.Proof.Gen.Kernel.Frame
import proofs.«168930_j29953101922499_2_alg».proof.Proof.Gen.KernelIdeal
import proofs.«168930_j29953101922499_2_alg».proof.Proof.Gen.KernelIdeal.Skeleton
import proofs.«168930_j29953101922499_2_alg».proof.Proof.Gen.KernelIdeal.Loops
import proofs.«168930_j29953101922499_2_alg».proof.Proof.Gen.KernelIdeal.Launch
import proofs.«168930_j29953101922499_2_alg».proof.Proof.Gen.KernelIdeal.Points
import proofs.«168930_j29953101922499_2_alg».proof.Proof.Gen.KernelIdeal.Frame
import proofs.«168930_j29953101922499_2_alg».proof.Proof.Gen.ReferenceIdeal
import proofs.«168930_j29953101922499_2_alg».proof.Proof.Gen.ReferenceIdeal.Run
import proofs.«168930_j29953101922499_2_alg».proof.Proof.Gen.ReferenceIdeal.Read
import proofs.«168930_j29953101922499_2_alg».proof.Proof.Gen.Pre_finite_inputs
import proofs.«168930_j29953101922499_2_alg».proof.Proof.KValue
import proofs.«168930_j29953101922499_2_alg».proof.Proof.RefValue
import Idealize.ShloMosaic.Adequacy
import Idealize.ShloMosaic.Init

noncomputable section

namespace Cert.Proof

open Idealize.ShloMosaic Idealize.SL.Sem

/-- The word-level kernel runs and leaves its inputs unchanged. -/
theorem frame_k : @Cert.frame_Kernel Cert.Kernel.Gen.facts Cert.Pre_finite_inputs.Gen.facts :=
  fun m ρ _ => Cert.Kernel.Gen.frame m ρ

/-- The idealized kernel runs and leaves its inputs unchanged. -/
theorem frame_ki : @Cert.frame_KernelIdeal Cert.KernelIdeal.Gen.facts Cert.Pre_finite_inputs.Gen.facts :=
  fun m ρ _ => Cert.KernelIdeal.Gen.frame m ρ

/-- The reference runs and leaves its inputs unchanged: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- From memories agreeing on the three inputs both idealized programs end with the loss of those inputs. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.NTXent.ref_value, (hagree c).1, (hagree c).2.1, (hagree c).2.2]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
